-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S512x512 : Shape := ⟨2, ![512, 512]⟩
abbrev S1x1 : Shape := ⟨2, ![1, 1]⟩
abbrev S4x512 : Shape := ⟨2, ![4, 512]⟩
abbrev S4x4 : Shape := ⟨2, ![4, 4]⟩
abbrev S4x1x512 : Shape := ⟨3, ![4, 1, 512]⟩
abbrev S4x4x1 : Shape := ⟨3, ![4, 4, 1]⟩
abbrev S4x4x512 : Shape := ⟨3, ![4, 4, 512]⟩
abbrev S1x4x512 : Shape := ⟨3, ![1, 4, 512]⟩
abbrev S4 : Shape := ⟨1, ![4]⟩
abbrev S4x1 : Shape := ⟨2, ![4, 1]⟩
abbrev S1 : Shape := ⟨1, ![1]⟩

abbrev nBuf : Space → Nat
  | .hbm => 3
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S1x1, .f32⟩
  | .hbm, ⟨2, _⟩ => ⟨S1, .f32⟩
  | .local _ .vmem, ⟨0, _⟩ => ⟨S512x512, .f32⟩
  | .local _ .vmem, ⟨1, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S512x512_S512x512_0_0 : ∀ a, (![0, 0] : Fin 2 → Nat) a + S512x512.size a ≤ S512x512.size a
  h_S512x512 : 0 < S512x512.numel
  slices_S512x512_o0_0_S4x512 : S512x512.Slices ![0, 0] S4x512
  slices_S4x512_o0_0_S4x4 : S4x512.Slices ![0, 0] S4x4
  shapeCasts_S4x512_S4x1x512 : S4x512.ShapeCasts S4x1x512
  shapeCasts_S4x4_S4x4x1 : S4x4.ShapeCasts S4x4x1
  broadcasts_S4x1x512_S4x4x512 : S4x1x512.Broadcasts S4x4x512
  broadcasts_S4x4x1_S4x4x512 : S4x4x1.Broadcasts S4x4x512
  iota_S4x512_d0_w32 : S4x512.Iotas .tc 32 [0]
  iota_S4x512_d1_w32 : S4x512.Iotas .tc 32 [1]
  shapeCasts_S4x512_S1x4x512 : S4x512.ShapeCasts S1x4x512
  broadcasts_S1x4x512_S4x4x512 : S1x4x512.Broadcasts S4x4x512
  reduces_S4x4x512_S4x4 : S4x4x512.Reduces [2] S4x4
  reduces_S4x4_S4 : S4x4.Reduces [1] S4
  shapeCasts_S4_S4x1 : S4.ShapeCasts S4x1
  reduces_S4x1_S1 : S4x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1 : S1x1.ShapeCasts S1
  dot_S4x512_S512x512_S4x512_1_1_0_0_n_n_wf : DotDims.WF S4x512 S512x512 S4x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

def dot_S4x512_S512x512_S4x512_1_1_0_0_n_n : DotDims S4x512 S512x512 S4x512 where
  lhsContracting := [1]
  rhsContracting := [1]
  lhsNonContracting := [0]
  rhsNonContracting := [0]
  lhsBatch := []
  rhsBatch := []
  wf := dot_S4x512_S512x512_S4x512_1_1_0_0_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x512 : Shape := ⟨2, ![512, 512]⟩
abbrev S512x1x512 : Shape := ⟨3, ![512, 1, 512]⟩
abbrev S512x512x1 : Shape := ⟨3, ![512, 512, 1]⟩
abbrev S512x512x512 : Shape := ⟨3, ![512, 512, 512]⟩
abbrev S_ : Shape := ⟨0, ![]⟩
abbrev S1x512x512 : Shape := ⟨3, ![1, 512, 512]⟩
abbrev S4x512 : Shape := ⟨2, ![4, 512]⟩
abbrev S512x4 : Shape := ⟨2, ![512, 4]⟩
abbrev S4x4 : Shape := ⟨2, ![4, 4]⟩
abbrev S4x1x4 : Shape := ⟨3, ![4, 1, 4]⟩
abbrev S4x4x1 : Shape := ⟨3, ![4, 4, 1]⟩
abbrev S4x4x4 : Shape := ⟨3, ![4, 4, 4]⟩
abbrev S1x4x4 : Shape := ⟨3, ![1, 4, 4]⟩
abbrev S1 : Shape := ⟨1, ![1]⟩

abbrev nBuf : Space → Nat
  | .hbm => 99
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x1x512, .f32⟩
  | .hbm, ⟨4, _⟩ => ⟨S512x512x1, .f32⟩
  | .hbm, ⟨5, _⟩ => ⟨S512x512x512, .f32⟩
  | .hbm, ⟨6, _⟩ => ⟨S512x512x512, .f32⟩
  | .hbm, ⟨7, _⟩ => ⟨S512x512x512, .f32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S512x512, .i1⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512x512, .f32⟩
  | .hbm, ⟨19, _⟩ => ⟨S_, .f32⟩
  | .hbm, ⟨20, _⟩ => ⟨S512x512x512, .f32⟩
  | .hbm, ⟨21, _⟩ => ⟨S512x512x512, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S512x512x512, .f32⟩
  | .hbm, ⟨26, _⟩ => ⟨S512x512x512, .f32⟩
  | .hbm, ⟨27, _⟩ => ⟨S_, .f32⟩
  | .hbm, ⟨28, _⟩ => ⟨S512x512x512, .f32⟩
  | .hbm, ⟨29, _⟩ => ⟨S512x512x512, .f32⟩
  | .hbm, ⟨30, _⟩ => ⟨S512x512x512, .f32⟩
  | .hbm, ⟨31, _⟩ => ⟨S_, .f32⟩
  | .hbm, ⟨32, _⟩ => ⟨S512x512x512, .f32⟩
  | .hbm, ⟨33, _⟩ => ⟨S512x512x512, .f32⟩
  | .hbm, ⟨34, _⟩ => ⟨S_, .f32⟩
  | .hbm, ⟨35, _⟩ => ⟨S512x512x512, .f32⟩
  | .hbm, ⟨36, _⟩ => ⟨S512x512x512, .f32⟩
  | .hbm, ⟨37, _⟩ => ⟨S1x512x512, .f32⟩
  | .hbm, ⟨38, _⟩ => ⟨S512x512x512, .f32⟩
  | .hbm, ⟨39, _⟩ => ⟨S512x512x512, .f32⟩
  | .hbm, ⟨40, _⟩ => ⟨S_, .f32⟩
  | .hbm, ⟨41, _⟩ => ⟨S512x512, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S4x512, .f32⟩
  | .hbm, ⟨46, _⟩ => ⟨S512x4, .f32⟩
  | .hbm, ⟨47, _⟩ => ⟨S4x4, .f32⟩
  | .hbm, ⟨48, _⟩ => ⟨S4x1x4, .f32⟩
  | .hbm, ⟨49, _⟩ => ⟨S4x4x1, .f32⟩
  | .hbm, ⟨50, _⟩ => ⟨S4x4x4, .f32⟩
  | .hbm, ⟨51, _⟩ => ⟨S4x4x4, .f32⟩
  | .hbm, ⟨52, _⟩ => ⟨S4x4x4, .f32⟩
  | .hbm, ⟨53, _⟩ => ⟨S4x4, .i32⟩
  | .hbm, ⟨54, _⟩ => ⟨S4x4, .i32⟩
  | .hbm, ⟨55, _⟩ => ⟨S_, .i32⟩
  | .hbm, ⟨56, _⟩ => ⟨S4x4, .i32⟩
  | .hbm, ⟨57, _⟩ => ⟨S4x4, .i32⟩
  | .hbm, ⟨58, _⟩ => ⟨S4x4, .i1⟩
  | .hbm, ⟨59, _⟩ => ⟨S4x4, .f32⟩
  | .hbm, ⟨60, _⟩ => ⟨S_, .f32⟩
  | .hbm, ⟨61, _⟩ => ⟨S4x4, .f32⟩
  | .hbm, ⟨62, _⟩ => ⟨S4x4, .f32⟩
  | .hbm, ⟨63, _⟩ => ⟨S4x4x4, .f32⟩
  | .hbm, ⟨64, _⟩ => ⟨S_, .f32⟩
  | .hbm, ⟨65, _⟩ => ⟨S4x4x4, .f32⟩
  | .hbm, ⟨66, _⟩ => ⟨S4x4x4, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S4x4x4, .f32⟩
  | .hbm, ⟨71, _⟩ => ⟨S4x4x4, .f32⟩
  | .hbm, ⟨72, _⟩ => ⟨S_, .f32⟩
  | .hbm, ⟨73, _⟩ => ⟨S4x4x4, .f32⟩
  | .hbm, ⟨74, _⟩ => ⟨S4x4x4, .f32⟩
  | .hbm, ⟨75, _⟩ => ⟨S4x4x4, .f32⟩
  | .hbm, ⟨76, _⟩ => ⟨S_, .f32⟩
  | .hbm, ⟨77, _⟩ => ⟨S4x4x4, .f32⟩
  | .hbm, ⟨78, _⟩ => ⟨S4x4x4, .f32⟩
  | .hbm, ⟨79, _⟩ => ⟨S_, .f32⟩
  | .hbm, ⟨80, _⟩ => ⟨S4x4x4, .f32⟩
  | .hbm, ⟨81, _⟩ => ⟨S4x4x4, .f32⟩
  | .hbm, ⟨82, _⟩ => ⟨S1x4x4, .f32⟩
  | .hbm, ⟨83, _⟩ => ⟨S4x4x4, .f32⟩
  | .hbm, ⟨84, _⟩ => ⟨S4x4x4, .f32⟩
  | .hbm, ⟨85, _⟩ => ⟨S_, .f32⟩
  | .hbm, ⟨86, _⟩ => ⟨S4x4, .f32⟩
  | .hbm, ⟨87, _⟩ => ⟨S_, .f32⟩
  | .hbm, ⟨88, _⟩ => ⟨S4x4, .f32⟩
  | .hbm, ⟨89, _⟩ => ⟨S4x4, .f32⟩
  | .hbm, ⟨90, _⟩ => ⟨S4x4, .f32⟩
  | .hbm, ⟨91, _⟩ => ⟨S4x4, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S1, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_cst_11 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_14 : Ref sig .tc := ⟨.hbm, 85, rfl⟩
abbrev main_v58 : Ref sig .tc := ⟨.hbm, 86, rfl⟩
abbrev main_cst_15 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_16 : Ref sig .tc := ⟨.hbm, 92, rfl⟩
abbrev main_v63 : Ref sig .tc := ⟨.hbm, 93, rfl⟩
abbrev main_cst_17 : Ref sig .tc := ⟨.hbm, 94, rfl⟩
abbrev main_v64 : Ref sig .tc := ⟨.hbm, 95, rfl⟩
abbrev main_cst_18 : Ref sig .tc := ⟨.hbm, 96, rfl⟩
abbrev main_v65 : Ref sig .tc := ⟨.hbm, 97, rfl⟩
abbrev main_v66 : Ref sig .tc := ⟨.hbm, 98, rfl⟩

abbrev nD : Nat := 1
abbrev τ : Topo := Topo.v7x

variable {F : FTy → Type} [FloatOps F]

class Facts₀ : Prop where
  transposes_S512x512_S512x512_1_0 : S512x512.Transposes [1, 0] S512x512
  bcast_S512x512_S512x1x512_0_2 : S512x512.BroadcastsInDim S512x1x512 (![0, 2] : Fin 2 → Fin S512x1x512.rank)
  bcast_S512x512_S512x512x1_0_1 : S512x512.BroadcastsInDim S512x512x1 (![0, 1] : Fin 2 → Fin S512x512x1.rank)
  bcast_S512x1x512_S512x512x512_0_1_2 : S512x1x512.BroadcastsInDim S512x512x512 (![0, 1, 2] : Fin 3 → Fin S512x512x512.rank)
  bcast_S512x512x1_S512x512x512_0_1_2 : S512x512x1.BroadcastsInDim S512x512x512 (![0, 1, 2] : Fin 3 → Fin S512x512x512.rank)
  bcast_S_S512x512 : S_.BroadcastsInDim S512x512 (![] : Fin 0 → Fin S512x512.rank)
  bcast_S_S512x512x512 : S_.BroadcastsInDim S512x512x512 (![] : Fin 0 → Fin S512x512x512.rank)
  bcast_S512x512_S1x512x512_1_2 : S512x512.BroadcastsInDim S1x512x512 (![1, 2] : Fin 2 → Fin S1x512x512.rank)
  bcast_S1x512x512_S512x512x512_0_1_2 : S1x512x512.BroadcastsInDim S512x512x512 (![0, 1, 2] : Fin 3 → Fin S512x512x512.rank)
  reducesTo_S512x512x512_S512x512_d2 : S512x512x512.ReducesTo [2] S512x512
  h_S_ : 0 < S_.numel
  slices_S512x512_S4x512_0_0 : S512x512.Slices ![0, 0] S4x512
  transposes_S4x512_S512x4_1_0 : S4x512.Transposes [1, 0] S512x4
  bcast_S4x4_S4x1x4_0_2 : S4x4.BroadcastsInDim S4x1x4 (![0, 2] : Fin 2 → Fin S4x1x4.rank)
  bcast_S4x4_S4x4x1_0_1 : S4x4.BroadcastsInDim S4x4x1 (![0, 1] : Fin 2 → Fin S4x4x1.rank)
  bcast_S4x1x4_S4x4x4_0_1_2 : S4x1x4.BroadcastsInDim S4x4x4 (![0, 1, 2] : Fin 3 → Fin S4x4x4.rank)
  bcast_S4x4x1_S4x4x4_0_1_2 : S4x4x1.BroadcastsInDim S4x4x4 (![0, 1, 2] : Fin 3 → Fin S4x4x4.rank)
  bcast_S_S4x4 : S_.BroadcastsInDim S4x4 (![] : Fin 0 → Fin S4x4.rank)
  bcast_S_S4x4x4 : S_.BroadcastsInDim S4x4x4 (![] : Fin 0 → Fin S4x4x4.rank)
  bcast_S4x4_S1x4x4_1_2 : S4x4.BroadcastsInDim S1x4x4 (![1, 2] : Fin 2 → Fin S1x4x4.rank)
  bcast_S1x4x4_S4x4x4_0_1_2 : S1x4x4.BroadcastsInDim S4x4x4 (![0, 1, 2] : Fin 3 → Fin S4x4x4.rank)
  reducesTo_S4x4x4_S4x4_d2 : S4x4x4.ReducesTo [2] S4x4
  slices_S512x512_S4x4_0_0 : S512x512.Slices ![0, 0] S4x4
  reducesTo_S4x4_S_d0_1 : S4x4.ReducesTo [0, 1] S_
  shapeCasts_S_S1 : S_.ShapeCasts S1
  dot_S512x512_S512x512_S512x512_1_0_0_1_n_n_wf : DotDims.WF S512x512 S512x512 S512x512 [1] [0] [0] [1] [] []
  dot_S4x512_S512x4_S4x4_1_0_0_1_n_n_wf : DotDims.WF S4x512 S512x4 S4x4 [1] [0] [0] [1] [] []

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S4x512_S512x4_S4x4_1_0_0_1_n_n : DotDims S4x512 S512x4 S4x4 where
  lhsContracting := [1]
  rhsContracting := [0]
  lhsNonContracting := [0]
  rhsNonContracting := [1]
  lhsBatch := []
  rhsBatch := []
  wf := dot_S4x512_S512x4_S4x4_1_0_0_1_n_n_wf

class Facts : Prop extends Facts₀ where

variable [Facts]
-- ==== Proof.LibPaddedSum.lean ====
/-
  Zero padding does not change a sum, nor a sum of products.

  A sum over `k < n` of terms that vanish from `m ≤ n` on is the sum over `k < m`; hence if two rows of length `m`
  are both continued by zeros up to length `n`, the sum over `k < n` of the products of the continued rows is the sum
  over `k < m` of the products of the rows.  Stated in any commutative additive monoid (the first), and for any
  multiplication on it with `0 * 0 = 0` (the second) — in particular on the extended reals, where no finiteness is
  needed: the padding's terms are `0 * 0`.
-/
import Mathlib.Algebra.BigOperators.Fin

namespace PaddedSum

open scoped BigOperators

/-- A sum over `k < n` whose terms vanish from `m` on is the sum of its first `m` terms. -/
theorem sum_eq_sum_castLE {R : Type*} [AddCommMonoid R] {m n : ℕ} (h : m ≤ n) (f : Fin n → R)
    (hz : ∀ k : Fin n, m ≤ k.val → f k = 0) : ∑ k, f k = ∑ k : Fin m, f (Fin.castLE h k) := by
  obtain ⟨r, rfl⟩ := Nat.exists_eq_add_of_le h
  exact Fin.sum_trunc f fun j => hz _ (by simp)

/-- Rows `a`, `b` of length `m` continued by zeros to length `n` (`a'`, `b'`): the products' sum is unchanged. -/
theorem sum_mul_padded {R : Type*} [AddCommMonoid R] [Mul R] (h00 : (0 : R) * 0 = 0) {m n : ℕ} (h : m ≤ n) (a b : Fin m → R)
    (a' b' : Fin n → R) (ha : ∀ k : Fin m, a' (Fin.castLE h k) = a k) (hb : ∀ k : Fin m, b' (Fin.castLE h k) = b k)
    (ha0 : ∀ k : Fin n, m ≤ k.val → a' k = 0) (hb0 : ∀ k : Fin n, m ≤ k.val → b' k = 0) :
    ∑ k, a' k * b' k = ∑ k, a k * b k := by
  rw [sum_eq_sum_castLE h (fun k => a' k * b' k) fun k hk => by rw [ha0 k hk, hb0 k hk, h00]]
  exact Finset.sum_congr rfl fun k _ => by rw [ha k, hb k]

end PaddedSum
-- ==== Proof.LibIdealSpellings.lean ====
/-
  Spellings that denote one function on the extended reals, and one layout read at an index; all at any extents.

  * the binary32 word of 1.0 is the extended real one, and subtracting from the word of 0.0 is negation;
  * the logistic function is `1 / (1 + exp (-z))` spelt with the literal 1.0;
  * elu spelt `select (p > 0) p (exp p - 1.0)` and spelt `select (p > 0) p (1.0 · (exp (select (p > 0) 0.0 p) - 1))` agree:
    where `p > 0` both are `p`, elsewhere the inner selection is `p` and the literal factor is one;
  * a column [a, 1] broadcast in dimensions [0, 1] to [a, b] reads, at (i, j), the column's entry i.
-/
import Idealize.ShloMosaic.PureOps.Ideal
import Idealize.ShloMosaic.PureOps.Ideal.Laws
import Idealize.ShloMosaic.Lib.ValueIdx
import Idealize.ShloMosaic.Lib.Pipeline.Value

noncomputable section

namespace Cert.Lib.IdealSpellings

open Idealize.ShloMosaic Idealize.ShloMosaic.ValueIdx

/-- The binary32 word of 1.0 denotes the extended real one. -/
theorem ofBits_one : Ideal.ofBits .f32 0x3F800000#32 = 1 := by
  simp [Ideal.ofBits, Ideal.ieee, -EReal.coe_mul]; norm_num

/-- Subtracting from the literal zero is negation. -/
theorem zero_lit_sub (a : EReal) : Ideal.ofBits .f32 0x00000000#32 - a = -a := by
  rw [Ideal.ofBits_zero_f32, zero_sub]

/-- The logistic function is `1 / (1 + exp (-z))` with the ones spelt as the literal 1.0. -/
theorem logistic_lit (z : EReal) :
    Ideal.logistic z = Ideal.div (Ideal.ofBits .f32 0x3F800000#32) (Ideal.ofBits .f32 0x3F800000#32 + Ideal.exp (-z)) := by
  rw [ofBits_one]; rfl

/-- elu's two spellings agree: where `p > 0` both are `p`; elsewhere `exp p - 1` against `1 · (exp p - 1)`. -/
theorem elu_scalar (P : EReal) :
    Scalar.select (Ideal.cmp .ogt P (Ideal.ofBits .f32 0x00000000#32)) P (Ideal.exp P - Ideal.ofBits .f32 0x3F800000#32)
      = Scalar.select (Ideal.cmp .ogt P (Ideal.ofBits .f32 0x00000000#32)) P
          (Ideal.ofBits .f32 0x3F800000#32 * (Ideal.exp (Scalar.select (Ideal.cmp .ogt P (Ideal.ofBits .f32 0x00000000#32))
            (Ideal.ofBits .f32 0x00000000#32) P) - 1)) := by
  rcases BitVec.eq_zero_or_eq_one (Ideal.cmp .ogt P (Ideal.ofBits .f32 0x00000000#32)) with hb | hb
  · rw [hb, select_zero, select_zero, select_zero, ofBits_one, one_mul]
  · rw [hb, select_one, select_one]

/-- A column [a, 1] broadcast in dimensions [0, 1] to [a, b] reads, at (i, j), the column's entry i. -/
theorem bcastInDim_col_apply {α : Type} {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => rfl

end Cert.Lib.IdealSpellings

end
-- ==== Proof.SmoothRank.lean ====
/-
  The smoothed average-precision loss of the first four rows of a 512 × 512 matrix P, as ONE function of P on the
  extended reals.

  Write s(i, k) = Σ_d P(i, d) · P(k, d) for the inner product of rows i and k (`gram`), and σ(x) = 1 / (1 + exp(clamp(−x / τ)))
  for the tempered sigmoid with its exponent clamped to [−50, 50] (`sigm`; τ, ±50 and 1 are kept as the binary32 words
  both programs spell, never evaluated).  For a query row i and a key j,

    rankAll(i, j) = 1 + Σ_{k < 512, k ≠ j} σ(s(i, k) − s(i, j))      (the smoothed rank of j among all 512 keys),
    rankPos(i, j) = 1 + Σ_{l < 4,   l ≠ j} σ(s(i, l) − s(i, j))      (its smoothed rank among the four positives),
    loss = 1 − (Σ_{i < 4} Σ_{j < 4} rankPos(i, j) / rankAll(i, j)) / 16.

  "k ≠ j" is a factor that is 0 on the diagonal and 1 off it (`offDiag`); on the extended reals x · 0 = 0 and x · 1 = x for
  every x, infinite or not, so no finiteness is needed anywhere below.

  Also here: the two ways that factor is spelt with 32-bit row numbers (a selection on a comparison of the two numbers;
  one minus the comparison's bit read as a number), and the law that a sum over all 512 keys whose terms carry the
  factor "k ≠ j and k < 4" is the sum over the four positives.
-/
import Idealize.ShloMosaic.PureOps.Ideal
import Idealize.ShloMosaic.PureOps.Ideal.Laws
import Idealize.ShloMosaic.Lib.ValueIdx
import proofs.«125753_j20023137534430_2_alg».proof.Proof.LibPaddedSum
import proofs.«125753_j20023137534430_2_alg».proof.Proof.LibIdealSpellings

noncomputable section

open scoped BigOperators

namespace Cert.SmoothAP

open Idealize.ShloMosaic Idealize.ShloMosaic.ValueIdx

/-! ## The loss -/

/-- A 512 × 512 matrix of extended reals. -/
abbrev Preds := (⟨2, ![512, 512]⟩ : Shape).Idx → EReal

/-- Row i of the first four, as one of the 512 rows. -/
abbrev up (i : Fin 4) : Fin 512 := Fin.castLE (by decide) i

/-- The inner product of rows i and k. -/
def gram (P : Preds) (i k : Fin 512) : EReal := ∑ d : Fin 512, P (ix2 i d) * P (ix2 k d)

/-- The tempered sigmoid with its exponent clamped: 1 / (1 + exp(min(50, max(−50, −x / τ)))). -/
def sigm (x : EReal) : EReal :=
  Ideal.div (Ideal.ofBits .f32 0x3F800000#32)
    (Ideal.ofBits .f32 0x3F800000#32 + Ideal.exp (min (Ideal.ofBits .f32 0x42480000#32)
      (max (Ideal.ofBits .f32 0xC2480000#32) (Ideal.div (-x) (Ideal.ofBits .f32 0x3C23D70A#32)))))

/-- 0 on the diagonal, 1 off it. -/
def offDiag (a b : ℕ) : EReal := if a = b then 0 else 1

/-- The smoothed rank of key j among all 512 keys, for query row i. -/
def rankAll (P : Preds) (i j : Fin 512) : EReal :=
  (∑ k : Fin 512, sigm (gram P i k - gram P i j) * offDiag j.val k.val) + Ideal.ofBits .f32 0x3F800000#32

/-- The smoothed rank of key j among the four positives, for query row i. -/
def rankPos (P : Preds) (i j : Fin 4) : EReal :=
  (∑ l : Fin 4, sigm (gram P (up i) (up l) - gram P (up i) (up j)) * offDiag j.val l.val) + Ideal.ofBits .f32 0x3F800000#32

/-- One minus the mean over the sixteen (query, key) pairs of rankPos / rankAll. -/
def loss (P : Preds) : EReal :=
  Ideal.ofBits .f32 0x3F800000#32
    - Ideal.div (∑ i : Fin 4, ∑ j : Fin 4, Ideal.div (rankPos P i j) (rankAll P (up i) (up j))) (Ideal.ofBits .f32 0x41800000#32)

/-! ## Row numbers as 32-bit words -/

/-- Two numbers below 2^32 counted out as words are one word exactly when they are one number. -/
theorem cmpi_eq_ofNat (a b : ℕ) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; rw [if_pos rfl]; simp
  · rw [if_neg h]
    have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    show BitVec.ofBool (BitVec.ofNat 32 a == BitVec.ofNat 32 b) = 0#1
    rw [beq_eq_false_iff_ne.mpr hne]; rfl

/-- A number below 2^31 counted out as a word reads back, signed, as itself. -/
theorem toInt_ofNat_lt (k : ℕ) (hk : k < 2 ^ 31) : (BitVec.ofNat 32 k).toInt = (k : ℤ) := by
  have hn : (BitVec.ofNat 32 k).toNat = k := by
    rw [BitVec.toNat_ofNat]; exact Nat.mod_eq_of_lt (by omega)
  unfold BitVec.toInt
  rw [hn, if_pos (by omega)]

/-- The signed comparison "k ≥ 4" of such a word is the comparison of the numbers. -/
theorem cmpi_sge_four (k : ℕ) (hk : k < 2 ^ 31) :
    IntOp.cmpi .sge (BitVec.ofNat 32 k) 4#32 = if 4 ≤ k then 1#1 else 0#1 := by
  have hs : (4#32 : BitVec 32).sle (BitVec.ofNat 32 k) = decide (4 ≤ k) := by
    rw [BitVec.sle_eq_decide, toInt_ofNat_lt k hk]
    have h4 : (4#32 : BitVec 32).toInt = 4 := by decide
    rw [h4]
    exact decide_eq_decide.mpr (by omega)
  show BitVec.ofBool ((4#32 : BitVec 32).sle (BitVec.ofNat 32 k)) = _
  rw [hs]
  by_cases h : 4 ≤ k
  · rw [if_pos h, decide_eq_true h]; rfl
  · rw [if_neg h, decide_eq_false h]; rfl

/-- Adding the zero word changes nothing. -/
theorem addi_zero (x : BitVec 32) : IntOp.addi x 0#32 = x := by
  unfold IntOp.addi; exact BitVec.add_zero x

/-! ## The factor "off the diagonal", spelt two ways -/

/-- The selection of 0.0 where the two row numbers agree and of 1.0 elsewhere is `offDiag`. -/
theorem select_offDiag (a b : ℕ) (ha : a < 2 ^ 32) (hb : b < 2 ^ 32) :
    Scalar.select (IntOp.cmpi .eq (BitVec.ofNat 32 a) (BitVec.ofNat 32 b)) (Ideal.ofBits .f32 0x00000000#32)
      (Ideal.ofBits .f32 0x3F800000#32) = offDiag a b := by
  rw [cmpi_eq_ofNat a b ha hb]
  unfold offDiag
  by_cases h : a = b
  · rw [if_pos h, if_pos h, select_one, Ideal.ofBits_zero_f32]
  · rw [if_neg h, if_neg h, select_zero, Cert.Lib.IdealSpellings.ofBits_one]

/-- The selection of 0.0 where the numbers agree or the second is 4 or more, and of 1.0 elsewhere. -/
theorem select_group (a b : ℕ) (ha : a < 2 ^ 31) (hb : b < 2 ^ 31) :
    Scalar.select (IntOp.ori (IntOp.cmpi .eq (BitVec.ofNat 32 a) (BitVec.ofNat 32 b)) (IntOp.cmpi .sge (BitVec.ofNat 32 b) 4#32))
      (Ideal.ofBits .f32 0x00000000#32) (Ideal.ofBits .f32 0x3F800000#32) = if a = b ∨ 4 ≤ b then (0 : EReal) else 1 := by
  rw [cmpi_eq_ofNat a b (by omega) (by omega), cmpi_sge_four b hb]
  by_cases h1 : a = b <;> by_cases h2 : 4 ≤ b
  · rw [if_pos h1, if_pos h2, if_pos (Or.inl h1)]
    show Scalar.select 1#1 _ _ = _
    rw [select_one, Ideal.ofBits_zero_f32]
  · rw [if_pos h1, if_neg h2, if_pos (Or.inl h1)]
    show Scalar.select 1#1 _ _ = _
    rw [select_one, Ideal.ofBits_zero_f32]
  · rw [if_neg h1, if_pos h2, if_pos (Or.inr h2)]
    show Scalar.select 1#1 _ _ = _
    rw [select_one, Ideal.ofBits_zero_f32]
  · rw [if_neg h1, if_neg h2, if_neg (by rintro (h | h); exact h1 h; exact h2 h)]
    show Scalar.select 0#1 _ _ = _
    rw [select_zero, Cert.Lib.IdealSpellings.ofBits_one]

/-- One minus the comparison's bit read as a number is `offDiag`: 1 − 1 = 0 where the numbers agree, 1 − 0 = 1 elsewhere. -/
theorem one_sub_bit_offDiag (a b : ℕ) (ha : a < 2 ^ 32) (hb : b < 2 ^ 32) :
    Ideal.ofBits .f32 0x3F800000#32
      - FloatOps.uitofp (F := Ideal) .f32 (IntOp.cmpi .eq (IntOp.addi (BitVec.ofNat 32 a) 0#32) (BitVec.ofNat 32 b)) = offDiag a b := by
  rw [addi_zero, cmpi_eq_ofNat a b ha hb, Cert.Lib.IdealSpellings.ofBits_one]
  unfold offDiag
  by_cases h : a = b
  · rw [if_pos h, if_pos h]
    show (1 : EReal) - (((1 : ℕ) : ℝ) : EReal) = 0
    rw [Nat.cast_one, EReal.coe_one, ← EReal.coe_one, ← EReal.coe_sub, sub_self, EReal.coe_zero]
  · rw [if_neg h, if_neg h]
    show (1 : EReal) - (((0 : ℕ) : ℝ) : EReal) = 1
    rw [Nat.cast_zero, EReal.coe_zero, sub_zero]

/-! ## From all 512 keys to the four positives -/

/-- A sum over all 512 keys whose terms carry the factor "k ≠ j and k < 4" is the sum over the four positives of the
    terms with the factor "l ≠ j": the other 508 terms are f(k) · 0 = 0. -/
theorem sum_keys_eq_sum_group (f : Fin 512 → EReal) (j : Fin 4) :
    ∑ k : Fin 512, f k * (if j.val = k.val ∨ 4 ≤ k.val then (0 : EReal) else 1)
      = ∑ l : Fin 4, f (up l) * offDiag j.val l.val := by
  rw [PaddedSum.sum_eq_sum_castLE (by decide : 4 ≤ 512)
    (fun k : Fin 512 => f k * (if j.val = k.val ∨ 4 ≤ k.val then (0 : EReal) else 1))
    (fun k hk => by show f k * (if j.val = k.val ∨ 4 ≤ k.val then (0 : EReal) else 1) = 0; rw [if_pos (Or.inr hk), mul_zero])]
  refine Finset.sum_congr rfl fun l _ => ?_
  show f (up l) * (if j.val = l.val ∨ 4 ≤ l.val then (0 : EReal) else 1) = f (up l) * offDiag j.val l.val
  have hl : ¬ 4 ≤ l.val := by have := l.isLt; omega
  unfold offDiag
  by_cases h : j.val = l.val
  · rw [if_pos (Or.inl h), if_pos h]
  · rw [if_neg (by rintro (h' | h'); exact h h'; exact hl h'), if_neg h]

end Cert.SmoothAP

end
-- ==== Proof.LibTransposedProduct.lean ====
/-
  A matrix product with the right factor transposed, read at one entry.

  For matrices `A : [M, K]` and `B : [N, K]` the contraction of the LAST axis of both — `A · Bᵀ`, the einsum
  `mk,nk->mn` — has entry `(i, j)` equal to `∑ k < K, A (i, k) * B (j, k)`.  At the ideal instance both the matrix
  unit's product into a zero accumulator and the host's `dot_general` are that sum, for ANY record of dimension
  numbers whose six axis lists are those of `A · Bᵀ` (contracting `[1]` and `[1]`, free `[0]` and `[0]`, no batch
  axis), at any extents `M`, `K`, `N` and any two float formats of the factors; `abt A B` names the whole product as
  one array, which both operations are.
-/
import Idealize.ShloMosaic.Lib.ValueIdx
import Idealize.ShloMosaic.PureOps.Ideal.Laws

noncomputable section

namespace Idealize.ShloMosaic.TransposedProduct

open Idealize.ShloMosaic Idealize.ShloMosaic.ValueIdx

variable {M K N : Nat}

/-- The axis lists of `A · Bᵀ`: both factors contracted on their last axis, their first axes free, no batch axis. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![M, K]⟩ ⟨2, ![N, K]⟩ ⟨2, ![M, N]⟩}

/-- The contracted shape has one axis … -/
theorem IsABt.rank_contr (h : IsABt d) : d.contr.rank = 1 := by
  rw [d.rank_contr, h.lc]; rfl

/-- … of extent `K`. -/
theorem IsABt.size_contr (h : IsABt d) : d.contr.size ⟨0, by rw [h.rank_contr]; exact Nat.one_pos⟩ = K := by
  have e := d.size_contr 0 (by rw [h.lc]; exact Nat.one_pos)
  rw [e]
  have : d.lhsContracting[0]'(by rw [h.lc]; exact Nat.one_pos) = (1 : Fin 2) := by
    simp [h.lc]
  rw [this]; rfl

/-- The left factor is read at row `i` of the entry … -/
theorem IsABt.lhs_row (h : IsABt d) (j : (⟨2, ![M, N]⟩ : Shape).Idx) (q : d.contr.Idx) :
    (d.lhsIdx j q 0).val = (j 0).val := by
  obtain ⟨lc, rc, ln, rn, lb, rb, wf⟩ := d
  obtain ⟨h1, h2, h3, h4, h5, h6⟩ := h
  simp only at h1 h2 h3 h4 h5 h6
  subst h1 h2 h3 h4 h5 h6
  unfold DotDims.lhsIdx
  rw [dif_neg List.not_mem_nil, dif_pos (List.mem_singleton.mpr rfl)]
  rfl

/-- … and at the contraction's position along its columns. -/
theorem IsABt.lhs_col (h : IsABt d) (j : (⟨2, ![M, N]⟩ : Shape).Idx) (q : d.contr.Idx) :
    (d.lhsIdx j q 1).val = (q ⟨0, by rw [h.rank_contr]; exact Nat.one_pos⟩).val :=
  d.lhsIdx_val_of_single h.lc j q

/-- The right factor is read at the row the entry's COLUMN names … -/
theorem IsABt.rhs_row (h : IsABt d) (j : (⟨2, ![M, N]⟩ : Shape).Idx) (q : d.contr.Idx) :
    (d.rhsIdx j q 0).val = (j 1).val := by
  obtain ⟨lc, rc, ln, rn, lb, rb, wf⟩ := d
  obtain ⟨h1, h2, h3, h4, h5, h6⟩ := h
  simp only at h1 h2 h3 h4 h5 h6
  subst h1 h2 h3 h4 h5 h6
  unfold DotDims.rhsIdx
  rw [dif_neg List.not_mem_nil, dif_pos (List.mem_singleton.mpr rfl)]
  rfl

/-- … and at the contraction's position along its columns. -/
theorem IsABt.rhs_col (h : IsABt d) (j : (⟨2, ![M, N]⟩ : Shape).Idx) (q : d.contr.Idx) :
    (d.rhsIdx j q 1).val = (q ⟨0, by rw [h.rank_contr]; exact Nat.one_pos⟩).val :=
  d.rhsIdx_val_of_single h.rc j q

/-- The contraction's sum over its one axis is the sum over `k < K` of the products of row `i` of `A` with row `j`
    of `B`. -/
theorem IsABt.sum_contr {φ₁ φ₂ : FTy} (h : IsABt d) (A : FVec Ideal ⟨2, ![M, K]⟩ φ₁) (B : FVec Ideal ⟨2, ![N, K]⟩ φ₂)
    (i : Fin M) (j : Fin N) :
    (∑ q : d.contr.Idx, A (d.lhsIdx (ix2 i j) q) * B (d.rhsIdx (ix2 i j) q) : EReal)
      = ∑ k : Fin K, A (ix2 i k) * B (ix2 j k) := by
  rw [← Equiv.sum_comp (contrEquiv1 d K h.rank_contr h.size_contr).symm]
  refine Finset.sum_congr rfl fun k _ => ?_
  have hk := contrEquiv1_symm_val d K h.rank_contr h.size_contr k
  have el : d.lhsIdx (ix2 i j) ((contrEquiv1 d K h.rank_contr h.size_contr).symm k) = ix2 i k :=
    funext fun a => Fin.ext (by
      match a with
      | ⟨0, _⟩ => exact h.lhs_row _ _
      | ⟨1, _⟩ => exact (h.lhs_col _ _).trans hk)
  have er : d.rhsIdx (ix2 i j) ((contrEquiv1 d K h.rank_contr h.size_contr).symm k) = ix2 j k :=
    funext fun a => Fin.ext (by
      match a with
      | ⟨0, _⟩ => exact h.rhs_row _ _
      | ⟨1, _⟩ => exact (h.rhs_col _ _).trans hk)
  rw [el, er]

/-- THE MATRIX UNIT's product into the zero accumulator, at entry `(i, j)`. -/
theorem matmul_zero_apply {φ₁ φ₂ : FTy} (h : IsABt d) (prec : Option ContractPrecision)
    (A : FVec Ideal ⟨2, ![M, K]⟩ φ₁) (B : FVec Ideal ⟨2, ![N, K]⟩ φ₂) (i : Fin M) (j : Fin N) :
    matmul d prec A B (constant (F := Ideal) ⟨2, ![M, N]⟩ .f32 0x00000000#32) (ix2 i j)
      = ∑ k : Fin K, A (ix2 i k) * B (ix2 j k) :=
  (Ideal.matmul_constant_zero_apply d prec A B (ix2 i j)).trans (h.sum_contr A B i j)

/-- THE HOST's `dot_general`, at entry `(i, j)`. -/
theorem dotGeneral_apply {φ₁ φ₂ : FTy} (h : IsABt d) (prec : Option ContractPrecision)
    (A : FVec Ideal ⟨2, ![M, K]⟩ φ₁) (B : FVec Ideal ⟨2, ![N, K]⟩ φ₂) (i : Fin M) (j : Fin N) :
    Host.dotGeneral d prec A B (ix2 i j) = ∑ k : Fin K, A (ix2 i k) * B (ix2 j k) := by
  simp only [Host.dotGeneral]
  exact (Ideal.dotGeneral_apply d prec _ A B (ix2 i j)).trans (h.sum_contr A B i j)

/-! ## The whole product as one array -/

/-- `A · Bᵀ` as a function of the two matrices: entry `(i, j)` is `∑ k < K, A (i, k) * B (j, k)`. -/
def abt (A : (⟨2, ![M, K]⟩ : Shape).Idx → EReal) (B : (⟨2, ![N, K]⟩ : Shape).Idx → EReal) :
    (⟨2, ![M, N]⟩ : Shape).Idx → EReal :=
  fun j => ∑ k : Fin K, A (ix2 (j 0) k) * B (ix2 (j 1) k)

theorem abt_apply (A : (⟨2, ![M, K]⟩ : Shape).Idx → EReal) (B : (⟨2, ![N, K]⟩ : Shape).Idx → EReal) (i : Fin M) (j : Fin N) :
    abt A B (ix2 i j) = ∑ k : Fin K, A (ix2 i k) * B (ix2 j k) := rfl

/-- The matrix unit's product into the zero accumulator IS that array … -/
theorem matmul_zero_eq_abt {φ₁ φ₂ : FTy} (h : IsABt d) (prec : Option ContractPrecision)
    (A : FVec Ideal ⟨2, ![M, K]⟩ φ₁) (B : FVec Ideal ⟨2, ![N, K]⟩ φ₂) :
    matmul d prec A B (constant (F := Ideal) ⟨2, ![M, N]⟩ .f32 0x00000000#32) = abt A B := by
  funext j
  obtain ⟨p, q, rfl⟩ : ∃ (p : Fin M) (q : Fin N), j = ix2 p q := ⟨j 0, j 1, eq_ix2 j⟩
  exact matmul_zero_apply h prec A B p q

/-- … and so is the host's `dot_general`. -/
theorem dotGeneral_eq_abt {φ₁ φ₂ : FTy} (h : IsABt d) (prec : Option ContractPrecision)
    (A : FVec Ideal ⟨2, ![M, K]⟩ φ₁) (B : FVec Ideal ⟨2, ![N, K]⟩ φ₂) :
    Host.dotGeneral d prec A B = abt A B := by
  funext j
  obtain ⟨p, q, rfl⟩ : ∃ (p : Fin M) (q : Fin N), j = ix2 p q := ⟨j 0, j 1, eq_ix2 j⟩
  exact dotGeneral_apply h prec A B p q

end Idealize.ShloMosaic.TransposedProduct

end
-- ==== Proof.LibUnitAxisLayout.lean ====
/-
  Two keepdims layouts read at an index, at any extents: a matrix `[a, b]` given a unit axis in the LAST place
  (`[a, b, 1]`) or in the MIDDLE (`[a, 1, b]`) by a shape cast, and such an array broadcast along its unit axis to
  `[a, b, c]` / `[a, c, b]`. A shape cast keeps the row-major position, and a unit axis contributes nothing to it, so
  the cast reads the matrix at the two remaining coordinates; the broadcast reads its operand at coordinate `0` of the
  unit axis. Composed: a per-row scalar spread along the lanes, and a per-lane row spread down the rows.
-/
import Idealize.ShloMosaic.Lib.ValueIdx
import Idealize.ShloMosaic.Lib.Pipeline.Value

noncomputable section

namespace Idealize.ShloMosaic.UnitAxisLayout

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (fun d => match d with
    | ⟨0, _⟩ => by
        show i.val = if a = 1 then 0 else i.val
        have := i.isLt; split <;> omega
    | ⟨1, _⟩ => by
        show j.val = if b = 1 then 0 else j.val
        have := j.isLt; split <;> omega
    | ⟨2, _⟩ => by
        show 0 = if (1 : Nat) = 1 then 0 else k.val
        rw [if_pos rfl])

/-- An `[a, 1, b]` array broadcast to `[a, c, b]` reads, at `(i, k, j)`, the operand at `(i, 0, j)`. -/
theorem broadcastTo_a1b_acb_apply {a b c : ℕ} (x : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ x h (ix3 i k j) = x (ix3 i (0 : Fin 1) j) :=
  broadcastTo_apply x h _ _ (fun d => match d with
    | ⟨0, _⟩ => by
        show i.val = if a = 1 then 0 else i.val
        have := i.isLt; split <;> omega
    | ⟨1, _⟩ => by
        show 0 = if (1 : Nat) = 1 then 0 else k.val
        rw [if_pos rfl]
    | ⟨2, _⟩ => by
        show j.val = if b = 1 then 0 else j.val
        have := j.isLt; split <;> omega)

/-- A per-row scalar spread along the lanes: `[a, b]` cast to `[a, b, 1]` and broadcast to `[a, b, c]` reads, at
    `(i, j, k)`, the matrix at `(i, j)`. -/
theorem spread_lanes_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- A per-lane row spread down the rows: `[a, b]` cast to `[a, 1, b]` and broadcast to `[a, c, b]` reads, at
    `(i, k, j)`, the matrix at `(i, j)`. -/
theorem spread_rows_apply {a b c : ℕ} (x : (⟨2, ![a, b]⟩ : Shape).Idx → α)
    (hc : (⟨2, ![a, b]⟩ : Shape).ShapeCasts ⟨3, ![a, 1, b]⟩) (hb : (⟨3, ![a, 1, b]⟩ : Shape).Broadcasts ⟨3, ![a, c, b]⟩)
    (i : Fin a) (k : Fin c) (j : Fin b) :
    broadcastTo ⟨3, ![a, c, b]⟩ (shapeCast ⟨3, ![a, 1, b]⟩ x hc) hb (ix3 i k j) = x (ix2 i j) :=
  (broadcastTo_a1b_acb_apply _ hb i k j).trans (shapeCast_ab_a1b_apply x hc i 0 j)

end Idealize.ShloMosaic.UnitAxisLayout

end
-- ==== Proof.LibAxisReductions.lean ====
/-
  Reductions along one axis and a column spread across lanes, read at an index given by coordinates, on the extended reals.

  A sum or a maximum along one axis of a matrix, at a kept coordinate, is the sum or the running maximum of the matrix's
  entries along that axis; a column [a, 1] spread to [a, b] reads, at (i, j), the column's entry i; and the host's
  reduction by a maximum along the last axis of a rank-3 array, at (p, q), is the running maximum, from the initial
  value, of the entries (p, q, k).
-/
import Idealize.ShloMosaic.Lib.ValueIdx
import Idealize.ShloMosaic.Lib.Pipeline.Value
import Idealize.ShloMosaic.PureOps.Ideal.Laws

namespace Cert.Lib.AxisReductions

open Idealize.ShloMosaic Idealize.ShloMosaic.ValueIdx

/-! ## The reduced index with the dropped coordinate put back -/

/-- Over column t of a matrix, putting row k back gives the index (k, t). -/
theorem lift_rows {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Over row i of a matrix, putting column k back gives the index (i, k). -/
theorem lift_cols {m n : ℕ} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- Over the pair (p, q) of a rank-3 array reduced along its last axis, putting k back gives (p, q, k). -/
theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums and maxima along one axis of a matrix -/

/-- The sum down the rows of a matrix, at column t: the sum over the rows k of the entry (k, t). -/
theorem sum_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.add.neutral .f32 hφ) (t : Fin n) :
    multiReduction .add [0] ⟨1, ![n]⟩ src acc h hφ hacc (ix1 t) = ∑ k : Fin m, src (ix2 k t) := by
  refine (Ideal.multiReduction_add_single src acc h hφ hacc (ix1 t)).trans ?_
  exact Finset.sum_congr rfl fun k _ => congrArg src (lift_rows h t k)

/-- The sum along the columns of a matrix, at row i: the sum over the columns k of the entry (i, k). -/
theorem sum_cols_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (i : Fin m) :
    multiReduction .add [1] ⟨1, ![m]⟩ src acc h hφ hacc (ix1 i) = ∑ k : Fin n, src (ix2 i k) := by
  refine (Ideal.multiReduction_add_single src acc h hφ hacc (ix1 i)).trans ?_
  exact Finset.sum_congr rfl fun k _ => congrArg src (lift_cols h i k)

/-- The maximum down the rows of a matrix, at column t: the running maximum, from the accumulator's value, of the
    entries (k, t). -/
theorem max_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.maximumf.neutral .f32 hφ) (t : Fin n) :
    multiReduction .maximumf [0] ⟨1, ![n]⟩ src acc h hφ hacc (ix1 t)
      = (Finset.univ : Finset (Fin m)).fold max (Ideal.ofBits .f32 acc) (fun k => src (ix2 k t)) := by
  refine (Ideal.multiReduction_maximumf_single src acc h hφ hacc (ix1 t)).trans ?_
  exact congrArg (fun f => Finset.fold max (Ideal.ofBits .f32 acc) f (Finset.univ : Finset (Fin m)))
    (funext fun k => congrArg src (lift_rows h t k))

/-! ## A column spread across lanes -/

/-- A column [a, 1] broadcast to [a, b] reads, at (i, j), the column's entry i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The host's maximum along the last axis of a rank-3 array -/

/-- The host's reduction by a maximum along the last axis of an [a, b, c] array, at (p, q): the running maximum, from the
    initial value, of the entries (p, q, k). -/
theorem hostMax_last3_apply {a b c : ℕ} {u : Shape} (x : FVec Ideal ⟨3, ![a, b, c]⟩ .f32) (init : u.Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = (Finset.univ : Finset (Fin c)).fold max (init (Shape.Idx.first hu)) (fun k => x (ix3 p q k)) := by
  refine (Host.reduce_eq_fold_single FloatOps.maximumf x init h' h hu (ix2 p q)).trans ?_
  exact congrArg (fun f => Finset.fold max (init (Shape.Idx.first hu)) f (Finset.univ : Finset (Fin c)))
    (funext fun k => congrArg x (lift_last3 h p q k))

/-- Minus infinity, as the binary32 word of it, is neutral for the maximum of extended reals. -/
theorem max_negInf (y : EReal) : max (Ideal.ofBits .f32 0xFF800000#32) y = y := by
  simp [Ideal.ofBits, Ideal.ieee]

end Cert.Lib.AxisReductions
-- ==== Proof.LibColumnCast.lean ====
/-
  A vector of length a cast to a column of shape [a, 1] (what a sum over the last axis that keeps that axis produces),
  read at an index given by coordinates.
-/
import Idealize.ShloMosaic.Lib.ValueIdx
import Idealize.ShloMosaic.Lib.Pipeline.Value

namespace Cert.Lib.ColumnCast

open Idealize.ShloMosaic Idealize.ShloMosaic.ValueIdx

/-- A vector of length a cast to a column [a, 1] reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.ColumnCast
-- ==== Proof.LibRank3Rows.lean ====
/-
  Two readings of a rank-3 array at an index given by coordinates, at any extents.

  * A block of shape [1, b, c] repeated along its leading unit axis to [a, b, c] reads, at (i, j, k), the block at (0, j, k).
  * On the extended reals, the sum along the LAST axis of an [a, b, c] array, at the kept coordinates (p, q), is the sum
    over k of the entries (p, q, k).
-/
import Idealize.ShloMosaic.Lib.ValueIdx
import Idealize.ShloMosaic.Lib.Pipeline.Value
import Idealize.ShloMosaic.PureOps.Ideal.Laws
import proofs.«125753_j20023137534430_2_alg».proof.Proof.LibAxisReductions

namespace Cert.Lib.Rank3Rows

open Idealize.ShloMosaic Idealize.ShloMosaic.ValueIdx

/-- A [1, b, c] block broadcast to [a, b, c] reads, at (i, j, k), the block at (0, j, k). -/
theorem broadcastTo_1bc_abc_apply {α : Type} {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) :=
  broadcastTo_apply x h _ _ (fun d => match d with
    | ⟨0, _⟩ => by
        show 0 = if (1 : Nat) = 1 then 0 else i.val
        rw [if_pos rfl]
    | ⟨1, _⟩ => by
        show j.val = if b = 1 then 0 else j.val
        have := j.isLt; split <;> omega
    | ⟨2, _⟩ => by
        show k.val = if c = 1 then 0 else k.val
        have := k.isLt; split <;> omega)

/-- The sum along the last axis of an [a, b, c] array, at (p, q): the sum over k of the entries (p, q, k). -/
theorem sum_last3_apply {a b c : ℕ} (src : FVec Ideal ⟨3, ![a, b, c]⟩ .f32) (acc : BitVec 32)
    (h : (⟨3, ![a, b, c]⟩ : Shape).Reduces [2] (⟨2, ![a, b]⟩ : Shape)) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (Cert.Lib.AxisReductions.lift_last3 h p q k)

end Cert.Lib.Rank3Rows
-- ==== Proof.KernelEntries.lean ====
/-
  The kernel body's stored value, entry by entry, is the smoothed average-precision loss.

  The body forms only the first four rows of the matrix of inner products, s(i, k) for i < 4 (one pass of the matrix
  unit: the first four rows of P against all of P, contracted along the features), and from them the 4 × 4 × 512 array
  of tempered sigmoids σ(s(i, k) − s(i, j)), whose negation is spelt 0 − x.  That one array serves BOTH ranks: masked
  with "k ≠ j" and summed over the 512 keys (plus one) it is the rank among all keys; masked with "k ≠ j and k < 4"
  and summed over the same 512 keys (plus one) it is the rank among the four positives, because the other 508
  terms are σ · 0 = 0.  The sixteen quotients are then summed along the columns, then down the rows, divided by 16
  and subtracted from one.
-/
import proofs.«125753_j20023137534430_2_alg».proof.Proof.Gen.KernelIdeal.Skeleton
import proofs.«125753_j20023137534430_2_alg».proof.Proof.SmoothRank
import proofs.«125753_j20023137534430_2_alg».proof.Proof.LibTransposedProduct
import proofs.«125753_j20023137534430_2_alg».proof.Proof.LibUnitAxisLayout
import proofs.«125753_j20023137534430_2_alg».proof.Proof.LibAxisReductions
import proofs.«125753_j20023137534430_2_alg».proof.Proof.LibColumnCast
import proofs.«125753_j20023137534430_2_alg».proof.Proof.LibRank3Rows
import Idealize.ShloMosaic.Lib.ValueLayout
import Idealize.ShloMosaic.Lib.Pipeline.Value

noncomputable section

open scoped BigOperators

namespace Cert.KernelIdeal.Entries

open Cert.KernelIdeal Cert.KernelIdeal.Gen Idealize.ShloMosaic Idealize.ShloMosaic.ValueIdx Cert.SmoothAP

/-! ## The inner products and the sigmoids -/

/-- The matrix unit's product of the first four rows of P with all of P, contracted along the features, at (i, k):
    the inner product of rows i and k. -/
theorem sim_apply (x0 : FVec Ideal S512x512 .f32) (i : Fin 4) (k : Fin 512) :
    matmul dot_S4x512_S512x512_S4x512_1_1_0_0_n_n (some .fp32) (extractStridedSlice S4x512 ![0, 0] x0 slices_S512x512_o0_0_S4x512) x0
      (constant (F := Ideal) S4x512 .f32 0x00000000#32) (ix2 i k) = gram x0 (up i) k := by
  refine (TransposedProduct.matmul_zero_apply ⟨rfl, rfl, rfl, rfl, rfl, rfl⟩ _ _ _ i k).trans ?_
  unfold gram
  refine Finset.sum_congr rfl fun d _ => congrArg (· * x0 (ix2 k d)) ?_
  exact slice2_axis0_apply 0 x0 _ i d (up i) (by show i.val = 0 + i.val; omega)

/-- The pointwise tail from a difference x to σ(x): 1 / (1 + exp(min(50, max(−50, (0 − x) / τ)))), 0 − x being −x. -/
theorem sigm_tail (v8 : FVec Ideal S4x4x512 .f32) (y : S4x4x512.Idx) :
    divf (broadcast S4x4x512 (FloatOps.ofBits (F := Ideal) .f32 0x3F800000#32))
      (addf (broadcast S4x4x512 (FloatOps.ofBits (F := Ideal) .f32 0x3F800000#32))
        (exp (minimumf (broadcast S4x4x512 (FloatOps.ofBits (F := Ideal) .f32 0x42480000#32))
          (maximumf (broadcast S4x4x512 (FloatOps.ofBits (F := Ideal) .f32 0xC2480000#32))
            (divf (subf (broadcast S4x4x512 (FloatOps.ofBits (F := Ideal) .f32 0x00000000#32)) v8)
              (broadcast S4x4x512 (FloatOps.ofBits (F := Ideal) .f32 0x3C23D70A#32))))))) y = sigm (v8 y) := by
  unfold sigm
  rw [← Cert.Lib.IdealSpellings.zero_lit_sub]
  rfl

/-- The array of sigmoids at (i, j, k): σ(s(i, k) − s(i, j)). -/
theorem pay2_apply (x0 : FVec Ideal S512x512 .f32) (i j : Fin 4) (k : Fin 512) :
    k0_pay2 (F := Ideal) x0 (ix3 i j k) = sigm (gram x0 (up i) k - gram x0 (up i) (up j)) := by
  unfold k0_pay2
  refine (sigm_tail _ (ix3 i j k)).trans (congrArg sigm ?_)
  refine (subf_apply _ _ _).trans (congrArg₂ (· - ·) ?_ ?_)
  · exact (UnitAxisLayout.spread_rows_apply _ _ _ i j k).trans (sim_apply x0 i k)
  · refine (UnitAxisLayout.spread_lanes_apply _ _ _ i j k).trans ?_
    exact (slice2_axis1_apply 0 _ _ i j (up j) (by show j.val = 0 + j.val; omega)).trans (sim_apply x0 i (up j))

/-! ## The two masks -/

/-- Row numbers against lane numbers of a 4 × 512 tile. -/
theorem iota_rows (j : Fin 4) (k : Fin 512) :
    iota .tc S4x512 32 [0] iota_S4x512_d0_w32 (ix2 j k) = BitVec.ofNat 32 j.val :=
  iota_single_apply .tc S4x512 32 0 iota_S4x512_d0_w32 (ix2 j k)

theorem iota_lanes (j : Fin 4) (k : Fin 512) :
    iota .tc S4x512 32 [1] iota_S4x512_d1_w32 (ix2 j k) = BitVec.ofNat 32 k.val :=
  iota_single_apply .tc S4x512 32 1 iota_S4x512_d1_w32 (ix2 j k)

/-- The mask "k ≠ j" repeated over the queries, at (i, j, k). -/
theorem diagMask_apply (i j : Fin 4) (k : Fin 512) :
    broadcastTo S4x4x512 (shapeCast S1x4x512
        (select (cmpi .eq (iota .tc S4x512 32 [0] iota_S4x512_d0_w32) (iota .tc S4x512 32 [1] iota_S4x512_d1_w32))
          (broadcast S4x512 (FloatOps.ofBits (F := Ideal) .f32 0x00000000#32))
          (broadcast S4x512 (FloatOps.ofBits (F := Ideal) .f32 0x3F800000#32)))
        shapeCasts_S4x512_S1x4x512) broadcasts_S1x4x512_S4x4x512 (ix3 i j k) = offDiag j.val k.val := by
  refine (Cert.Lib.Rank3Rows.broadcastTo_1bc_abc_apply _ _ i j k).trans ?_
  refine (shapeCast_ab_1ab_apply _ _ 0 j k).trans ?_
  show Scalar.select (IntOp.cmpi .eq (iota .tc S4x512 32 [0] iota_S4x512_d0_w32 (ix2 j k))
      (iota .tc S4x512 32 [1] iota_S4x512_d1_w32 (ix2 j k))) (Ideal.ofBits .f32 0x00000000#32) (Ideal.ofBits .f32 0x3F800000#32) = _
  rw [iota_rows, iota_lanes]
  exact select_offDiag j.val k.val (by have := j.isLt; omega) (by have := k.isLt; omega)

/-- The mask "k ≠ j and k < 4" repeated over the queries, at (i, j, k). -/
theorem pay4_apply (i j : Fin 4) (k : Fin 512) :
    k0_pay4 (F := Ideal) (ix3 i j k) = if j.val = k.val ∨ 4 ≤ k.val then (0 : EReal) else 1 := by
  unfold k0_pay4
  refine (Cert.Lib.Rank3Rows.broadcastTo_1bc_abc_apply _ _ i j k).trans ?_
  refine (shapeCast_ab_1ab_apply _ _ 0 j k).trans ?_
  show Scalar.select (IntOp.ori (IntOp.cmpi .eq (iota .tc S4x512 32 [0] iota_S4x512_d0_w32 (ix2 j k))
        (iota .tc S4x512 32 [1] iota_S4x512_d1_w32 (ix2 j k)))
      (IntOp.cmpi .sge (iota .tc S4x512 32 [1] iota_S4x512_d1_w32 (ix2 j k)) 4#32))
      (Ideal.ofBits .f32 0x00000000#32) (Ideal.ofBits .f32 0x3F800000#32) = _
  rw [iota_rows, iota_lanes]
  exact select_group j.val k.val (by have := j.isLt; omega) (by have := k.isLt; omega)

/-! ## The rank among all keys -/

/-- The sigmoids masked with "k ≠ j", summed over the 512 keys, plus one, at (i, j). -/
theorem pay3_apply (x0 : FVec Ideal S512x512 .f32) (i j : Fin 4) :
    k0_pay3 (F := Ideal) x0 (ix2 i j) = rankAll x0 (up i) (up j) := by
  unfold k0_pay3 rankAll
  refine (addf_apply _ _ _).trans (congrArg₂ (· + ·) ?_ rfl)
  refine (Cert.Lib.Rank3Rows.sum_last3_apply _ _ _ _ _ i j).trans (Finset.sum_congr rfl fun k _ => ?_)
  exact (mulf_apply _ _ _).trans (congrArg₂ (· * ·) (pay2_apply x0 i j k) (diagMask_apply i j k))

/-! ## The stored value -/

/-- The last stage, for ANY sigmoid array, rank matrix and second mask: one minus a sixteenth of the sum, over the
    sixteen pairs, of (the masked sigmoids summed over the keys, plus one) over the rank. -/
theorem pay1_apply (v27 : FVec Ideal S4x4x512 .f32) (v33 : FVec Ideal S4x4 .f32) (v42 : FVec Ideal S4x4x512 .f32) (u w : Fin 1) :
    k0_pay1 (F := Ideal) v27 v33 v42 (ix2 u w)
      = Ideal.ofBits .f32 0x3F800000#32
        - Ideal.div (∑ i : Fin 4, ∑ j : Fin 4,
            Ideal.div ((∑ k : Fin 512, v27 (ix3 i j k) * v42 (ix3 i j k)) + Ideal.ofBits .f32 0x3F800000#32) (v33 (ix2 i j)))
          (Ideal.ofBits .f32 0x41800000#32) := by
  unfold k0_pay1
  refine (subf_apply _ _ _).trans (congrArg₂ (· - ·) rfl ?_)
  refine (divf_apply _ _ _).trans (congrArg₂ Ideal.div ?_ rfl)
  refine (shapeCast_a_1a_apply _ _ u w).trans ?_
  refine (Cert.Lib.AxisReductions.sum_rows_apply _ _ _ _ _ w).trans (Finset.sum_congr rfl fun i _ => ?_)
  refine (Cert.Lib.ColumnCast.shapeCast_a_a1_apply _ _ i w).trans ?_
  refine (Cert.Lib.AxisReductions.sum_cols_apply _ _ _ _ _ i).trans (Finset.sum_congr rfl fun j _ => ?_)
  refine (divf_apply _ _ _).trans (congrArg₂ Ideal.div ?_ rfl)
  refine (addf_apply _ _ _).trans (congrArg₂ (· + ·) ?_ rfl)
  refine (Cert.Lib.Rank3Rows.sum_last3_apply _ _ _ _ _ i j).trans (Finset.sum_congr rfl fun k _ => ?_)
  exact mulf_apply _ _ _

/-- THE BODY'S STORED VALUE, at its one entry, is the loss of the block it loaded. -/
theorem stored_apply (x0 : FVec Ideal S512x512 .f32) (u w : Fin 1) :
    k0_pay1 (F := Ideal) (k0_pay2 x0) (k0_pay3 x0) (k0_pay4 (F := Ideal)) (ix2 u w) = loss x0 := by
  refine (pay1_apply _ _ _ u w).trans ?_
  unfold loss
  refine congrArg (fun z => Ideal.ofBits .f32 0x3F800000#32 - Ideal.div z (Ideal.ofBits .f32 0x41800000#32))
    (Finset.sum_congr rfl fun i _ => Finset.sum_congr rfl fun j _ => ?_)
  refine congrArg₂ Ideal.div ?_ (pay3_apply x0 i j)
  unfold rankPos
  refine congrArg (· + Ideal.ofBits .f32 0x3F800000#32) ?_
  exact (Finset.sum_congr rfl fun k _ => congrArg₂ (· * ·) (pay2_apply x0 i j k) (pay4_apply i j k)).trans
    (sum_keys_eq_sum_group (fun k => sigm (gram x0 (up i) k - gram x0 (up i) (up j))) j)

/-- The same at any index of the 1 × 1 result block. -/
theorem stored_at (x0 : FVec Ideal S512x512 .f32) (y : S1x1.Idx) :
    k0_pay1 (F := Ideal) (k0_pay2 x0) (k0_pay3 x0) (k0_pay4 (F := Ideal)) y = loss x0 := by
  obtain ⟨u, w, rfl⟩ : ∃ (u w : Fin 1), y = ix2 u w := ⟨y 0, y 1, eq_ix2 y⟩
  exact stored_apply x0 u w

end Cert.KernelIdeal.Entries

end
-- ==== Proof.KernelValue.lean ====
/-
  The kernel program's result after its run is the loss of its argument.

  The region has ONE grid point; its input block is the whole 512 × 512 argument and its output block the whole 1 × 1
  result array.  So what the point writes back is the body's stored value for the whole argument, the one block covers
  the array, and the array after the region holds the loss at its one entry.  The line after the region only recasts that
  1 × 1 array as a vector of length one.
-/
import proofs.«125753_j20023137534430_2_alg».proof.Proof.Gen.KernelIdeal.Frame
import proofs.«125753_j20023137534430_2_alg».proof.Proof.KernelEntries
import Idealize.ShloMosaic.Lib.Pipeline.Value
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.ValueIdx Cert.SmoothAP Idealize.ShloMosaic.StableHlo
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- What the body leaves in the result's buffer: the loss of the block it loaded, at the buffer's one entry. -/
theorem out_eq (x0 : FVec Ideal S512x512 .f32) : out0_1 (F := Ideal) x0 = fun _ => loss x0 := by
  unfold out0_1
  rw [View.canon_unit_zero zeros]
  simp only [View.ld_unit_zero (S := S512x512) zeros]
  funext y
  exact Entries.stored_at x0 y

/-- At the one grid point every block index is zero. -/
theorem index_zero : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input window's block at the grid point is the whole argument array as the region finds it. -/
theorem iblk_eq (c : Dev nD) (t : Fin cfg0.N) : iblk m c 0 t = V m c main_arg0 := by
  funext y
  show V m c main_arg0 (((cfg0.win 0).blk t).view.emb y) = V m c main_arg0 y
  refine congrArg (V m c main_arg0) (funext fun a => Fin.ext ?_)
  obtain ⟨e0, e1, -, -⟩ := index_zero t
  match a with
  | ⟨0, _⟩ => show win0_0.index t (0 : Fin 2) * 512 + 1 * (y 0).val = (y 0).val; omega
  | ⟨1, _⟩ => show win0_0.index t (1 : Fin 2) * 512 + 1 * (y 1).val = (y 1).val; omega

/-- WHAT THE GRID POINT WRITES BACK is the block of the constant array holding the argument's loss. -/
theorem flushed_eq (c : Dev nD) (t : Fin cfg0.N) :
    (dats m 0 c).flushed 1 t = ((cfg0.win 1).blk t).view.read (Elt Ideal) (fun _ => loss (V m c main_arg0)) := by
  show (cfg0.win 1).cut (grid0.coords t) ((dats m 0 c).after 1 t) = _
  rw [after0_1]
  funext y
  show out0_1 (iblk m c 0 t) ((cfg0.win 1).xinj (grid0.coords t) y) = loss (V m c main_arg0)
  exact (congrFun (out_eq (iblk m c 0 t)) _).trans (congrArg loss (iblk_eq m c t))

/-- The result array after the region: the loss at its one entry (the one block covers it). -/
theorem final (c : Dev nD) : (dats m 0 c).arrAt 1 cfg0.N = fun _ => loss (V m c main_arg0) :=
  (dats m 0 c).arrAt_eq_of_cover 1 _ (fun t _ => flushed_eq m c t) (fun i => by
    refine ⟨t0_0, flush0_1 t0_0, ?_⟩
    show i ∈ ((View.whole main_v0).slice (win0_1.rect t0_0)).set
    rw [View.set_slice_whole, Rect.mem_set_unit]
    intro a
    obtain ⟨-, -, e2, e3⟩ := index_zero t0_0
    match a with
    | ⟨0, _⟩ =>
      show win0_1.index t0_0 (0 : Fin 2) * 1 ≤ (i 0).val ∧ (i 0).val < win0_1.index t0_0 (0 : Fin 2) * 1 + 1
      have h0 : (i 0).val < 1 := (i 0).isLt
      omega
    | ⟨1, _⟩ =>
      show win0_1.index t0_0 (1 : Fin 2) * 1 ≤ (i 1).val ∧ (i 1).val < win0_1.index t0_0 (1 : Fin 2) * 1 + 1
      have h1 : (i 1).val < 1 := (i 1).isLt
      omega)

/-- The vector the line after the region leaves: the result array recast, so the loss at its one entry. -/
theorem tail_eq (c : Dev nD) :
    Pipeline.afterTail₀ cfgs (dats m) 0 (V0 m) [hostOps1] c main_v1 = fun _ => loss (m ((c : Thread nD τ).loc main_arg0)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = fun _ => loss (V m c main_arg0) :=
    (Pipeline.withArrays_arr spec0 launch0.win.arr_inj c _ _ 1).trans (final m c)
  rw [hw]
  funext i
  rfl

/-- THE KERNEL PROGRAM'S RUN, read: every weakly fair execution terminates with the result vector holding the loss of the
    argument array at its one entry, and the argument array unchanged. -/
theorem run : θ_run defs (onTc (τ := τ) (main (F := Ideal))) ⟨m, fun _ => 0, ρ⟩ fun r => ∀ c : Dev nD,
      r.2.mem ((c : Thread nD τ).loc main_v1) = (fun _ => loss (m ((c : Thread nD τ).loc main_arg0)))
      ∧ r.2.mem ((c : Thread nD τ).loc main_arg0) = m ((c : Thread nD τ).loc main_arg0) :=
  (θ_run defs _ _).mono (fun r h c =>
      ⟨((h c).2 main_v1 (Pipeline.mem_restRefs_of main_v1 rfl (by intro w; fin_cases w <;> decide))).trans (tail_eq m c),
        ((h c).1 0).trans (((dats m 0 c).arrAt_in 0 rfl _).trans ((A_eq m c 0).trans (V_main_arg0 m c)))⟩)
    (run_main m ρ)

end Cert.KernelIdeal.Result

end
-- ==== Proof.ReferenceLoss.lean ====
/-
  The reference program's result, stage by stage, is the smoothed average-precision loss.

  The reference forms the whole 512 × 512 matrix of inner products s, the 512 × 512 × 512 cube of tempered sigmoids
  σ(s(i, k) − s(i, j)), masks its diagonal j = k with 1 − [j = k], sums over k and adds one: the smoothed rank of key j among
  all keys for query i, at EVERY pair (i, j).  It then repeats the construction on the 4 × 4 corner of inner products of
  the first four rows (their own 4 × 4 × 4 cube, mask and sum), reads the 4 × 4 corner of the big rank matrix, and
  finishes with one minus the mean of the sixteen quotients.  Each stage below is read at an index given by
  coordinates; the inner products of the first four rows taken on their own are the corner of the big matrix because
  both are Σ_d P(i, d) · P(k, d).
-/
import proofs.«125753_j20023137534430_2_alg».proof.Proof.Gen.ReferenceIdeal.Read
import proofs.«125753_j20023137534430_2_alg».proof.Proof.SmoothRank

noncomputable section

open scoped BigOperators

namespace Cert.ReferenceIdeal.Loss

open Cert.ReferenceIdeal Cert.ReferenceIdeal.Read Idealize.ShloMosaic Idealize.ShloMosaic.ValueIdx Cert.SmoothAP

variable (P : (⟨S512x512, .f32⟩ : BufTy).Contents (Elt Ideal))

/-! ## All 512 keys -/

/-- The product of P with its transpose, at (i, k): the inner product of rows i and k. -/
theorem sim_apply (i k : Fin 512) : val_main_v1 (F := Ideal) P (ix2 i k) = gram P i k := by
  rw [val_main_v1_apply]
  unfold gram
  refine Finset.sum_congr rfl fun d _ => ?_
  rw [val_main_v0_apply]
  have e1 : lidx_main_v1 (ix2 i k) d = ix2 i d := funext fun a => by match a with | ⟨0, _⟩ => rfl | ⟨1, _⟩ => rfl
  have e2 : idx_main_v0 (ridx_main_v1 (ix2 i k) d) = ix2 k d := funext fun a => by match a with | ⟨0, _⟩ => rfl | ⟨1, _⟩ => rfl
  rw [e1, e2]

/-- The cube of sigmoids at (i, j, k): σ(s(i, k) − s(i, j)). -/
theorem sig_apply (i j k : Fin 512) :
    val_main_v23 (F := Ideal) P (ix3 i j k) = sigm (gram P i k - gram P i j) := by
  have e4 : idx_main_v2 (idx_main_v4 (ix3 i j k)) = ix2 i k := funext fun a => by match a with | ⟨0, _⟩ => rfl | ⟨1, _⟩ => rfl
  have e5 : idx_main_v3 (idx_main_v5 (ix3 i j k)) = ix2 i j := funext fun a => by match a with | ⟨0, _⟩ => rfl | ⟨1, _⟩ => rfl
  rw [val_main_v23_apply, val_main_v22_apply, val_main_cst_4_apply, val_main_v21_apply, val_main_v20_apply, val_main_cst_3_apply,
    val_main_v19_apply, val_main_v18_apply, val_main_call0_v4_apply, val_main_call0_v3_apply, val_main_cst_2_apply,
    val_main_call0_v2_apply, val_main_call0_v1_apply, val_main_call0_v0_apply, val_main_cst_1_apply,
    val_main_v17_apply, val_main_v16_apply, val_main_cst_0_apply, val_main_v15_apply, val_main_v6_apply,
    val_main_v4_apply, val_main_v2_apply, val_main_v5_apply, val_main_v3_apply, e4, e5, sim_apply, sim_apply]
  rfl

/-- The mask 1 − [j = k] at (j, k). -/
theorem mask_apply (j k : Fin 512) : val_main_v14 (F := Ideal) (ix2 j k) = offDiag j.val k.val := by
  rw [val_main_v14_apply, val_main_v13_apply, val_main_cst_apply, val_main_v12_apply, val_main_v11_apply, val_main_v10_apply,
    val_main_v7_apply, val_main_v9_apply, val_main_c_apply, val_main_v8_apply]
  exact one_sub_bit_offDiag j.val k.val (by have := j.isLt; omega) (by have := k.isLt; omega)

/-- The masked cube summed over k, plus one, at (i, j): the smoothed rank of j among all keys. -/
theorem rankAll_apply (i j : Fin 512) : val_main_v29 (F := Ideal) P (ix2 i j) = rankAll P i j := by
  rw [val_main_v29_apply, val_main_v28_apply, val_main_cst_6_apply, val_main_v27_apply, val_main_cst_5_apply]
  unfold rankAll
  show (Ideal.ofBits .f32 0x00000000#32 + ∑ k : Fin 512, val_main_v26 (F := Ideal) P (idx_main_v27 (ix2 i j) k))
      + Ideal.ofBits .f32 0x3F800000#32 = _
  rw [Ideal.ofBits_zero_f32, zero_add]
  refine congrArg (· + Ideal.ofBits .f32 0x3F800000#32) (Finset.sum_congr rfl fun k _ => ?_)
  have e : idx_main_v27 (ix2 i j) k = ix3 i j k :=
    funext fun a => by match a with | ⟨0, _⟩ => rfl | ⟨1, _⟩ => rfl | ⟨2, _⟩ => rfl
  have e25 : idx_main_v24 (idx_main_v25 (ix3 i j k)) = ix2 j k := funext fun a => by match a with | ⟨0, _⟩ => rfl | ⟨1, _⟩ => rfl
  rw [e, val_main_v26_apply, sig_apply, val_main_v25_apply, val_main_v24_apply, e25, mask_apply]
  rfl

/-! ## The four positives -/

/-- The product of the first four rows with their transpose, at (j, l): the inner product of rows j and l of P. -/
theorem simPos_apply (j l : Fin 4) : val_main_v32 (F := Ideal) P (ix2 j l) = gram P (up j) (up l) := by
  rw [val_main_v32_apply]
  unfold gram
  refine Finset.sum_congr rfl fun d _ => ?_
  rw [val_main_v30_apply, val_main_v31_apply, val_main_v30_apply]
  have e1 : idx_main_v30 (lidx_main_v32 (ix2 j l) d) = ix2 (up j) d := funext fun a => by match a with | ⟨0, _⟩ => rfl | ⟨1, _⟩ => rfl
  have e2 : idx_main_v30 (idx_main_v31 (ridx_main_v32 (ix2 j l) d)) = ix2 (up l) d :=
    funext fun a => by match a with | ⟨0, _⟩ => rfl | ⟨1, _⟩ => rfl
  rw [e1, e2]

/-- The small cube of sigmoids at (j, k, l): σ(s(j, l) − s(j, k)). -/
theorem sigPos_apply (j k l : Fin 4) :
    val_main_v54 (F := Ideal) P (ix3 j k l) = sigm (gram P (up j) (up l) - gram P (up j) (up k)) := by
  have e35 : idx_main_v33 (idx_main_v35 (ix3 j k l)) = ix2 j l := funext fun a => by match a with | ⟨0, _⟩ => rfl | ⟨1, _⟩ => rfl
  have e36 : idx_main_v34 (idx_main_v36 (ix3 j k l)) = ix2 j k := funext fun a => by match a with | ⟨0, _⟩ => rfl | ⟨1, _⟩ => rfl
  rw [val_main_v54_apply, val_main_v53_apply, val_main_cst_13_apply, val_main_v52_apply, val_main_v51_apply, val_main_cst_12_apply,
    val_main_v50_apply, val_main_v49_apply, val_main_call1_v4_apply, val_main_call1_v3_apply, val_main_cst_11_apply,
    val_main_call1_v2_apply, val_main_call1_v1_apply, val_main_call1_v0_apply, val_main_cst_10_apply,
    val_main_v48_apply, val_main_v47_apply, val_main_cst_9_apply, val_main_v46_apply, val_main_v37_apply,
    val_main_v35_apply, val_main_v33_apply, val_main_v36_apply, val_main_v34_apply, e35, e36, simPos_apply, simPos_apply]
  rfl

/-- The small mask 1 − [k = l] at (k, l). -/
theorem maskPos_apply (k l : Fin 4) : val_main_v45 (F := Ideal) (ix2 k l) = offDiag k.val l.val := by
  rw [val_main_v45_apply, val_main_v44_apply, val_main_cst_8_apply, val_main_v43_apply, val_main_v42_apply, val_main_v41_apply,
    val_main_v38_apply, val_main_v40_apply, val_main_c_7_apply, val_main_v39_apply]
  exact one_sub_bit_offDiag k.val l.val (by have := k.isLt; omega) (by have := l.isLt; omega)

/-- The masked small cube summed over l, plus one, at (j, k): the smoothed rank of k among the four positives. -/
theorem rankPos_apply (j k : Fin 4) : val_main_v60 (F := Ideal) P (ix2 j k) = rankPos P j k := by
  rw [val_main_v60_apply, val_main_v59_apply, val_main_cst_15_apply, val_main_v58_apply, val_main_cst_14_apply]
  unfold rankPos
  show (Ideal.ofBits .f32 0x00000000#32 + ∑ l : Fin 4, val_main_v57 (F := Ideal) P (idx_main_v58 (ix2 j k) l))
      + Ideal.ofBits .f32 0x3F800000#32 = _
  rw [Ideal.ofBits_zero_f32, zero_add]
  refine congrArg (· + Ideal.ofBits .f32 0x3F800000#32) (Finset.sum_congr rfl fun l _ => ?_)
  have e : idx_main_v58 (ix2 j k) l = ix3 j k l :=
    funext fun a => by match a with | ⟨0, _⟩ => rfl | ⟨1, _⟩ => rfl | ⟨2, _⟩ => rfl
  have e56 : idx_main_v55 (idx_main_v56 (ix3 j k l)) = ix2 k l := funext fun a => by match a with | ⟨0, _⟩ => rfl | ⟨1, _⟩ => rfl
  rw [e, val_main_v57_apply, sigPos_apply, val_main_v56_apply, val_main_v55_apply, e56, maskPos_apply]
  rfl

/-! ## The quotients and their mean -/

/-- The quotient at (a, b): the rank among the positives over the corner entry of the rank among all keys. -/
theorem ratio_apply (a b : Fin 4) :
    val_main_v62 (F := Ideal) P (ix2 a b) = Ideal.div (rankPos P a b) (rankAll P (up a) (up b)) := by
  have e : idx_main_v61 (ix2 a b) = ix2 (up a) (up b) := funext fun c => by match c with | ⟨0, _⟩ => rfl | ⟨1, _⟩ => rfl
  rw [val_main_v62_apply, rankPos_apply, val_main_v61_apply, e, rankAll_apply]
  rfl

/-- THE REFERENCE'S RESULT, at its one index, is the loss. -/
theorem result_apply (i : S1.Idx) : val_main_v66 (F := Ideal) P i = loss P := by
  have hcast : val_main_v66 (F := Ideal) P i = val_main_v65 (F := Ideal) P ix0 := by
    unfold val_main_v66 shapeCast
    exact congrArg (val_main_v65 (F := Ideal) P) (funext fun a => a.elim0)
  rw [hcast, val_main_v65_apply, val_main_cst_18_apply, val_main_v64_apply, val_main_cst_17_apply, val_main_v63_apply,
    val_main_cst_16_apply, sum_idx2]
  unfold loss
  show Ideal.ofBits .f32 0x3F800000#32
      - Ideal.div (Ideal.ofBits .f32 0x00000000#32 + ∑ a : Fin 4, ∑ b : Fin 4, val_main_v62 (F := Ideal) P (ix2 a b))
          (Ideal.ofBits .f32 0x41800000#32) = _
  rw [Ideal.ofBits_zero_f32, zero_add]
  refine congrArg (fun z => Ideal.ofBits .f32 0x3F800000#32 - Ideal.div z (Ideal.ofBits .f32 0x41800000#32))
    (Finset.sum_congr rfl fun a _ => Finset.sum_congr rfl fun b _ => ?_)
  exact ratio_apply P a b

end Cert.ReferenceIdeal.Loss

end
-- ==== Proof.lean ====
/-
  The smoothed average-precision loss: a kernel that computes only the first four rows of the matrix of inner
  products, against a reference that builds the whole 512 × 512 × 512 cube of sigmoids and reads its 4 × 4 corner.

  Both programs, read on the extended reals, end with one number: one minus the mean, over the sixteen pairs (i, j) of
  the first four rows, of rankPos(i, j) / rankAll(i, j) — the smoothed rank of key j among the four positives over its
  smoothed rank among all 512 keys for query i (Proof/SmoothRank.lean states it as ONE function `loss` of the argument).
  The reference computes rankAll at every pair of the 512 rows and keeps the corner, and computes rankPos from a 4 × 4 × 4
  cube of its own (Proof/ReferenceLoss.lean).  The kernel computes the 4 × 4 × 512 array of sigmoids once and sums it
  twice over the 512 keys, once masked off the diagonal and once masked off the diagonal AND off the keys beyond the
  fourth, whose terms are σ · 0 = 0 (Proof/KernelEntries.lean); its one grid point's block is the whole array, and the
  line after the region recasts the 1 × 1 result as a vector (Proof/KernelValue.lean).  The two agree for EVERY argument,
  finite or not: the only laws used are x · 0 = 0, 0 + x = x, 0 − x = −x and the commutative, associative sum, which hold
  on all extended reals, so the precondition is never opened.

  The three frames are the generated runs.  The ideal pass recorded no rewrite for this kernel, so the conjunct that states
  what it preserves is the proposition True.
-/
import proofs.«125753_j20023137534430_2_alg».proof.Defs
import proofs.«125753_j20023137534430_2_alg».proof.Proof.Gen.Kernel
import proofs.«125753_j20023137534430_2_alg».proof.Proof.Gen.Kernel.Frame
import proofs.«125753_j20023137534430_2_alg».proof.Proof.Gen.KernelIdeal
import proofs.«125753_j20023137534430_2_alg».proof.Proof.Gen.KernelIdeal.Frame
import proofs.«125753_j20023137534430_2_alg».proof.Proof.Gen.ReferenceIdeal
import proofs.«125753_j20023137534430_2_alg».proof.Proof.Gen.ReferenceIdeal.Run
import proofs.«125753_j20023137534430_2_alg».proof.Proof.Gen.ReferenceIdeal.Read
import proofs.«125753_j20023137534430_2_alg».proof.Proof.Gen.Pre_finite_inputs
import proofs.«125753_j20023137534430_2_alg».proof.Proof.KernelValue
import proofs.«125753_j20023137534430_2_alg».proof.Proof.ReferenceLoss
import Idealize.ShloMosaic.Adequacy
import Idealize.ShloMosaic.Init

noncomputable section

namespace Cert.Proof

open Idealize.ShloMosaic Idealize.ShloMosaic.TcCoe Idealize.SL.Sem

/-- The word-level kernel program runs and leaves its argument as it was. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and leaves its argument as it was: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass's list of rewrites is empty: the conjunct is the proposition True. -/
theorem preserves : Cert.preserves_Kernel_KernelIdeal := trivial

/-- From memories that agree on the argument both programs end with the argument's loss at the result's one entry. -/
theorem algebraic : Cert.algebraic_KernelIdeal_ReferenceIdeal := by
  intro m ρ m' ρ' _ hagree
  refine ⟨fun c _ => Cert.SmoothAP.loss (m ((c.tc : Thread Cert.KernelIdeal.nD Cert.KernelIdeal.τ).loc Cert.KernelIdeal.main_arg0)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, hagree c]
  funext i
  exact Cert.ReferenceIdeal.Loss.result_apply _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
